-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x128 : Shape := ⟨2, ![16384, 128]⟩
abbrev S100000x128 : Shape := ⟨2, ![100000, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : IVec S16384 32) (main_arg1 : FVec F S16384x128 .f32) (main_arg2 : FVec F S100000x128 .f32) : IVec S_ 1 :=
  let main_v0 : FVec F S16384x128 .f32 := Host.absf main_arg1
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  main_v8
-- ==== Kernel.lean ====
abbrev S16384 : Shape := ⟨1, ![16384]⟩
abbrev S16384x128 : Shape := ⟨2, ![16384, 128]⟩
abbrev S100000x128 : Shape := ⟨2, ![100000, 128]⟩
abbrev S_ : Shape := ⟨0, ![]⟩
abbrev S100000 : Shape := ⟨1, ![100000]⟩
abbrev S16384x1 : Shape := ⟨2, ![16384, 1]⟩
abbrev S100000x1 : Shape := ⟨2, ![100000, 1]⟩
abbrev S100000x2 : Shape := ⟨2, ![100000, 2]⟩
abbrev S5000x128 : Shape := ⟨2, ![5000, 128]⟩
abbrev S5000x2 : Shape := ⟨2, ![5000, 2]⟩
abbrev S5000x1 : Shape := ⟨2, ![5000, 1]⟩

abbrev nBuf : Space → Nat
  | .hbm => 40
  | .vmem => 8
  | .smem => 0
  | _ => 0

abbrev bufTy : (tb : Table) → Fin (tcTables nBuf tb) → BufTy
  | .hbm, ⟨0, _⟩ => ⟨S16384, .i32⟩
  | .hbm, ⟨1, _⟩ => ⟨S16384x128, .f32⟩
  | .hbm, ⟨2, _⟩ => ⟨S100000x128, .f32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S100000, .f32⟩
  | .hbm, ⟨7, _⟩ => ⟨S16384x1, .i32⟩
  | .hbm, ⟨8, _⟩ => ⟨S100000, .f32⟩
  | .hbm, ⟨9, _⟩ => ⟨S_, .f32⟩
  | .hbm, ⟨10, _⟩ => ⟨S100000x128, .f32⟩
  | .hbm, ⟨11, _⟩ => ⟨S16384x1, .i32⟩
  | .hbm, ⟨12, _⟩ => ⟨S100000x128, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x1, .f32⟩
  | .hbm, ⟨23, _⟩ => ⟨S100000x2, .f32⟩
  | .hbm, ⟨24, _⟩ => ⟨S100000x128, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S16384x128, .f32⟩
  | .hbm, ⟨34, _⟩ => ⟨S16384x128, .f32⟩
  | .hbm, ⟨35, _⟩ => ⟨S16384x128, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x2, .f32⟩
  | .local _ .vmem, ⟨5, _⟩ => ⟨S5000x2, .f32⟩
  | .local _ .vmem, ⟨6, _⟩ => ⟨S5000x128, .f32⟩
  | .local _ .vmem, ⟨7, _⟩ => ⟨S5000x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16384 : S_.BroadcastsInDim S16384 (![] : Fin 0 → Fin S16384.rank)
  bcast_S_S100000 : S_.BroadcastsInDim S100000 (![] : Fin 0 → Fin S100000.rank)
  bcast_S16384_S16384x1_0 : S16384.BroadcastsInDim S16384x1 (![0] : Fin 1 → Fin S16384x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  inb_S5000x128_S5000x128_0_0 : ∀ a, (![0, 0] : Fin 2 → Nat) a + S5000x128.size a ≤ S5000x128.size a
  h_S5000x128 : 0 < S5000x128.numel
  broadcasts_S5000x1_S5000x128 : S5000x1.Broadcasts S5000x128
  shapeCasts_S5000x128_S5000x128 : S5000x128.ShapeCasts S5000x128
  reducesTo_S16384x128_S_d0_1 : S16384x128.ReducesTo [0, 1] S_
  h_S_ : 0 < S_.numel
  scatter_S100000_S16384x1_S16384_n_0_0_1_wf : ScatterDims.WF S100000 S16384x1 S16384 [] [0] [0] 1
  scatter_S100000x128_S16384x1_S16384x128_1_0_0_1_wf : ScatterDims.WF S100000x128 S16384x1 S16384x128 [1] [0] [0] 1
  gather_S100000x128_S16384x1_S16384x128_1_0_n_n_0_1_1128_wf : GatherDims.WF S100000x128 S16384x1 S16384x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x2.size a ≤ S100000x2.size a
  hwx0_2 : ∀ i : grid0.Coords, EltTy.bits .f32 = 32 ∨ (Rect.block (s := S100000x2) S5000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def scatter_S100000_S16384x1_S16384_n_0_0_1 : ScatterDims S100000 S16384x1 S16384 where
  updateWindowDims := []
  insertedWindowDims := [0]
  scatterDimsToOperandDims := [0]
  indexVectorDim := 1
  wf := scatter_S100000_S16384x1_S16384_n_0_0_1_wf
def scatter_S100000x128_S16384x1_S16384x128_1_0_0_1 : ScatterDims S100000x128 S16384x1 S16384x128 where
  updateWindowDims := [1]
  insertedWindowDims := [0]
  scatterDimsToOperandDims := [0]
  indexVectorDim := 1
  wf := scatter_S100000x128_S16384x1_S16384x128_1_0_0_1_wf
def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

abbrev win0_0 : Pipeline.Window sig grid0 :=
  Pipeline.Window.ofSpec (Memref.whole main_arg2) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384 : Shape := ⟨1, ![16384]⟩
abbrev S16384x128 : Shape := ⟨2, ![16384, 128]⟩
abbrev S100000x128 : Shape := ⟨2, ![100000, 128]⟩
abbrev S_ : Shape := ⟨0, ![]⟩
abbrev S100000 : Shape := ⟨1, ![100000]⟩
abbrev S16384x1 : Shape := ⟨2, ![16384, 1]⟩
abbrev S100000x1 : Shape := ⟨2, ![100000, 1]⟩

abbrev nBuf : Space → Nat
  | .hbm => 42
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x128, .f32⟩
  | .hbm, ⟨2, _⟩ => ⟨S100000x128, .f32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S100000, .f32⟩
  | .hbm, ⟨7, _⟩ => ⟨S16384x1, .i32⟩
  | .hbm, ⟨8, _⟩ => ⟨S100000, .f32⟩
  | .hbm, ⟨9, _⟩ => ⟨S_, .f32⟩
  | .hbm, ⟨10, _⟩ => ⟨S100000x128, .f32⟩
  | .hbm, ⟨11, _⟩ => ⟨S16384x1, .i32⟩
  | .hbm, ⟨12, _⟩ => ⟨S100000x128, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000x1, .f32⟩
  | .hbm, ⟨17, _⟩ => ⟨S100000x128, .f32⟩
  | .hbm, ⟨18, _⟩ => ⟨S100000x128, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S_S100000 : S_.BroadcastsInDim S100000 (![] : Fin 0 → Fin S100000.rank)
  bcast_S16384_S16384x1_0 : S16384.BroadcastsInDim S16384x1 (![0] : Fin 1 → Fin S16384x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S16384x128_S_d0_1 : S16384x128.ReducesTo [0, 1] S_
  h_S_ : 0 < S_.numel
  scatter_S100000_S16384x1_S16384_n_0_0_1_wf : ScatterDims.WF S100000 S16384x1 S16384 [] [0] [0] 1
  scatter_S100000x128_S16384x1_S16384x128_1_0_0_1_wf : ScatterDims.WF S100000x128 S16384x1 S16384x128 [1] [0] [0] 1
  gather_S100000x128_S16384x1_S16384x128_1_0_n_n_0_1_1128_wf : GatherDims.WF S100000x128 S16384x1 S16384x128 [1] [0] [] [0] [] 1 ![1, 128]

variable [Facts₀]

def scatter_S100000_S16384x1_S16384_n_0_0_1 : ScatterDims S100000 S16384x1 S16384 where
  updateWindowDims := []
  insertedWindowDims := [0]
  scatterDimsToOperandDims := [0]
  indexVectorDim := 1
  wf := scatter_S100000_S16384x1_S16384_n_0_0_1_wf
def scatter_S100000x128_S16384x1_S16384x128_1_0_0_1 : ScatterDims S100000x128 S16384x1 S16384x128 where
  updateWindowDims := [1]
  insertedWindowDims := [0]
  scatterDimsToOperandDims := [0]
  indexVectorDim := 1
  wf := scatter_S100000x128_S16384x1_S16384x128_1_0_0_1_wf
def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

class Facts : Prop extends Facts₀ where

variable [Facts]
-- ==== Proof.RealArith.lean ====
/-
  The arithmetic that joins the two programs, on the extended reals.

  Per class `k` write `x` for the number of samples labelled `k` (a sum of ones), `s` for one coordinate of the
  sum of their feature rows and `c` for the same coordinate of the class centre.  With `r = x / (1 + x)` and
  `m = max x 1` one program forms `r · c − (r / m) · s` and the other `r · (c − s / m)`.  Over the reals these
  agree by distributivity, since `m ≥ 1` is never zero.  On the extended reals distributivity fails at the
  infinities, so the law is stated for real `x ≥ 0`, `s`, `c`: every quotient is then a product with a real
  reciprocal (`1 + x > 0`, `m ≥ 1`), every term is a real number, and the identity is the real one.

  Also here: a finite sum of real numbers is real (so a sum of finitely many finite updates onto a finite
  element is finite), a sum of ones is a non-negative real, and `|x| < +∞` says `x` is real.
-/
import Idealize.ShloMosaic.PureOps.Ideal
import Idealize.ShloMosaic.PureOps.Ideal.Laws

noncomputable section

open scoped BigOperators

namespace Cert.CenterGrad

open Idealize.ShloMosaic

/-- A finite sum of real numbers, read in the extended reals, is the real sum. -/
theorem sum_coe {ι : Type} (S : Finset ι) (f : ι → ℝ) :
    ∑ j ∈ S, ((f j : ℝ) : EReal) = ((∑ j ∈ S, f j : ℝ) : EReal) := by
  classical
  induction S using Finset.induction_on with
  | empty => simp
  | insert a S ha ih => rw [Finset.sum_insert ha, Finset.sum_insert ha, ih, EReal.coe_add]

/-- A finite sum of extended reals each of which is a real number is a real number. -/
theorem sum_real {ι : Type} (S : Finset ι) (u : ι → EReal) (hu : ∀ j, ∃ r : ℝ, u j = (r : EReal)) :
    ∃ σ : ℝ, ∑ j ∈ S, u j = (σ : EReal) := by
  choose f hf using hu
  exact ⟨∑ j ∈ S, f j, by rw [← sum_coe]; exact Finset.sum_congr rfl (fun j _ => hf j)⟩

/-- A finite sum of ones is a non-negative real number (the number of terms). -/
theorem sum_ones_real {ι : Type} (S : Finset ι) : ∃ n : ℝ, 0 ≤ n ∧ ∑ _j ∈ S, (1 : EReal) = (n : EReal) := by
  classical
  induction S using Finset.induction_on with
  | empty => exact ⟨0, le_refl _, by simp⟩
  | insert a S ha ih =>
    obtain ⟨n, hn, e⟩ := ih
    refine ⟨1 + n, by positivity, ?_⟩
    rw [Finset.sum_insert ha, e, EReal.coe_add, EReal.coe_one]

/-- `|x| < +∞` in the order of the extended reals says that `x` is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The law joining the two programs at one element: for a real count `x ≥ 0` and real `s`, `c`,
    `r · c − (r / m) · s = r · (c − s / m)` with `r = x / (1 + x)` and `m = max x 1`. -/
theorem grad_law (one x s c : EReal) (h1 : one = 1) (hx : ∃ n : ℝ, 0 ≤ n ∧ x = (n : EReal))
    (hs : ∃ σ : ℝ, s = (σ : EReal)) (hc : ∃ γ : ℝ, c = (γ : EReal)) :
    Ideal.div x (one + x) * c - Ideal.div (Ideal.div x (one + x)) (max x one) * s
      = Ideal.div x (one + x) * (c - Ideal.div s (max x one)) := by
  obtain ⟨n, hn, rfl⟩ := hx
  obtain ⟨σ, rfl⟩ := hs
  obtain ⟨γ, rfl⟩ := hc
  subst h1
  have e1 : (1 : EReal) + (n : EReal) = ((1 + n : ℝ) : EReal) := by rw [EReal.coe_add, EReal.coe_one]
  have em : max (n : EReal) 1 = ((max n 1 : ℝ) : EReal) := by
    rw [← EReal.coe_one]; exact (EReal.coe_strictMono.monotone.map_max).symm
  have hp : (1 + n : ℝ) ≠ 0 := by positivity
  have hq : (max n 1 : ℝ) ≠ 0 := (lt_of_lt_of_le one_pos (le_max_right n 1)).ne'
  rw [e1, em, Ideal.div_coe hp, Ideal.div_coe hq, Ideal.div_coe hq]
  simp only [← EReal.coe_mul, ← EReal.coe_sub]
  congr 1
  ring

end Cert.CenterGrad

end
-- ==== Proof.FiniteInputs.lean ====
/-
  What the precondition gives: every entry of the feature array and of the centre array is a real number.

  The precondition is the conjunction of two `all`-reductions, one per float argument, each of the comparison
  `|x| < +∞` element by element.  A conjunction of bits that is 1 has both bits 1; an `all` that is 1 has a 1
  at every index; and `|x| < +∞` on the extended reals excludes exactly the two infinities.
-/
import proofs.«162777_j60885456388837_2_alg».proof.Pre_finite_inputs
import proofs.«162777_j60885456388837_2_alg».proof.Proof.RealArith
import Idealize.ShloMosaic.Lib.ReduceAll
import Idealize.ShloMosaic.Lib.Affine
import Idealize.ShloMosaic.Lib.ValueIdx
import Idealize.ShloMosaic.Lib.Pipeline.Value

noncomputable section

namespace Cert.CenterGrad

open Idealize.ShloMosaic Idealize.ShloMosaic.ValueIdx

instance : Subsingleton Cert.Pre_finite_inputs.S_.Idx := ⟨fun a b => funext fun d => d.elim0⟩

/-- The word of `+∞` denotes the top of the extended reals. -/
theorem ofBits_inf : Ideal.ofBits .f32 0x7F800000#32 = ⊤ := by simp [Ideal.ofBits, Ideal.ieee]

/-- One array's comparison `|x| < +∞`, 1 at an index, says the entry there is a real number. -/
theorem real_of_lt_inf {s : Shape} (x : FVec Ideal s .f32)
    (hb : Cert.Pre_finite_inputs.S_.BroadcastsInDim s (![] : Fin 0 → Fin s.rank)) (i : s.Idx)
    (e : cmpf .olt (Host.absf x) (broadcastInDim s ![] hb (constant (F := Ideal) Cert.Pre_finite_inputs.S_ .f32 0x7F800000#32)) i = 1#1) :
    ∃ r : ℝ, x i = (r : EReal) := by
  have hinf : broadcastInDim s ![] hb (constant (F := Ideal) Cert.Pre_finite_inputs.S_ .f32 0x7F800000#32) i = ⊤ :=
    (broadcastInDim_apply _ hb _ i ix0 (fun a => a.elim0)).trans ofBits_inf
  refine real_of_abs_lt_top (x i) ?_
  rw [← hinf]
  exact e

variable [Cert.Pre_finite_inputs.Facts]

/-- Under the precondition every entry of both float arguments is a real number. -/
theorem real_of_pre (y : IVec Cert.Pre_finite_inputs.S16384 32) (feat : FVec Ideal Cert.Pre_finite_inputs.S16384x128 .f32)
    (ctr : FVec Ideal Cert.Pre_finite_inputs.S100000x128 .f32)
    (h : Cert.Pre_finite_inputs.fn (F := Ideal) y feat ctr = fun _ => 1#1) :
    (∀ i, ∃ r : ℝ, feat i = (r : EReal)) ∧ (∀ i, ∃ r : ℝ, ctr i = (r : EReal)) := by
  have h0 := congrFun h ix0
  dsimp only [Cert.Pre_finite_inputs.fn] at h0
  obtain ⟨ha, hb⟩ := IntOp.andi_eq_one.mp h0
  exact ⟨fun i => real_of_lt_inf feat _ i (Host.reduce_andi_all _ _ _ _ ix0 ha i),
    fun i => real_of_lt_inf ctr _ i (Host.reduce_andi_all _ _ _ _ ix0 hb i)⟩

end Cert.CenterGrad

end
-- ==== Proof.LossValue.lean ====
/-
  The loss, on the kernel's side.

  After the region the kernel's program computes the loss by host lines that read only the three arguments:
  wrap a negative label by adding 100000, gather the centre row of each sample, subtract it from the sample's
  feature row, square, sum everything from zero and multiply by the constant 0.005 (as an f32 word).  The
  reference computes its loss by the same lines.  None of them reads what the kernel wrote: of the arrays the
  region touches they read only the centres, an input window, which the region leaves as it found it.  So the
  loss is the reference's own stage of the three arguments.
-/
import proofs.«162777_j60885456388837_2_alg».proof.Proof.Gen.KernelIdeal.Frame
import proofs.«162777_j60885456388837_2_alg».proof.Proof.Gen.ReferenceIdeal.Read
import Idealize.ShloMosaic.Lib.StableHlo.Run

noncomputable section

namespace Cert.CenterGrad

open Idealize.ShloMosaic Idealize.ShloMosaic.TcCoe Idealize.SL.Sem Idealize.ShloMosaic.StableHlo
open Cert.KernelIdeal Cert.KernelIdeal.Gen

/-- The lines after the region, run from ANY buffer contents holding the three arguments, end with the loss at
    the reference's stage of those arguments. -/
theorem tail_loss (W : Valuation τ sig (Elt Ideal)) (a0 : IVec S16384 32) (a1 : FVec Ideal S16384x128 .f32)
    (a2 : FVec Ideal S100000x128 .f32)
    (h0 : W (Proc.devRef .tc main_arg0) = a0) (h1 : W (Proc.devRef .tc main_arg1) = a1)
    (h2 : W (Proc.devRef .tc main_arg2) = a2) :
    StableHlo.after (hostOps1 (F := Ideal)) W (Proc.devRef .tc main_v27)
      = Cert.ReferenceIdeal.Read.val_main_v29 (F := Ideal) a0 a1 a2 := by
  after_results
  rw [h0, h1, h2]
  rfl

variable (m : (ℓ : Loc nD τ sig) → Buf (Elt Ideal) ℓ)

/-- THE LOSS after the kernel's run is the reference's stage of the launch contents of the three arguments. -/
theorem loss_value (c : Dev nD) :
    Pipeline.afterTail₀ cfgs (dats m) 0 (V0 m) [hostOps1] c main_v27
      = Cert.ReferenceIdeal.Read.val_main_v29 (F := Ideal) (m ((c : Thread nD τ).loc main_arg0))
          (m ((c : Thread nD τ).loc main_arg1)) (m ((c : Thread nD τ).loc main_arg2)) := by
  unfold Pipeline.afterTail₀
  show StableHlo.after hostOps1 _ (Proc.devRef .tc main_v27) = _
  refine tail_loss _ _ _ _ ?_ ?_ ?_
  · exact (Pipeline.withArrays_of_ne _ c (V0 m c) _ main_arg0
      (by exact (by decide : ∀ w, Pipeline.arrRef spec0 w ≠ main_arg0))).trans (V_main_arg0 m c)
  · exact (Pipeline.withArrays_of_ne _ c (V0 m c) _ main_arg1
      (by exact (by decide : ∀ w, Pipeline.arrRef spec0 w ≠ main_arg1))).trans (V_main_arg1 m c)
  · exact (Pipeline.withArrays_arr spec0 launch0.win.arr_inj c _ _ 0).trans
      (((dats m 0 c).arrAt_in 0 rfl _).trans ((A_eq m c 0).trans (V_main_arg2 m c)))

end Cert.CenterGrad

end
-- ==== Proof.BodyValue.lean ====
/-
  What the kernel body stores, entry by entry.

  At a grid point the body loads a block of 5000 class rows of the centre array (`x0`), the same rows of the
  per-class feature sums (`x1`) and the same rows of a two-column table (`x2`).  It splits the table into its two
  columns, broadcasts each along the 128 feature coordinates, and stores
  `column 0 · x0 − column 1 · x1`.  So entry `(p, q)` of the stored block is
  `x2 (p, 0) · x0 (p, q) − x2 (p, 1) · x1 (p, q)`: row `p`'s two table entries applied to row `p` of the two
  arrays.  The shape casts in the body are casts to the same shape and change nothing.
-/
import proofs.«162777_j60885456388837_2_alg».proof.Proof.Gen.KernelIdeal.Skeleton
import Idealize.ShloMosaic.Lib.Pipeline.Value
import Idealize.ShloMosaic.Lib.ValueIdx

noncomputable section

namespace Cert.CenterGrad

open Idealize.ShloMosaic Idealize.ShloMosaic.ValueIdx Cert.KernelIdeal Cert.KernelIdeal.Gen

/-- A column `[5000, 1]` broadcast along the feature axis reads, at `(p, q)`, the column's entry of row `p`. -/
theorem column_broadcast (v : FVec Ideal S5000x1 .f32) (p : Fin 5000) (q : Fin 128) :
    broadcastTo S5000x128 v Facts₀.broadcasts_S5000x1_S5000x128 (ix2 p q) = v (ix2 p (0 : Fin 1)) :=
  broadcastTo_apply v Facts₀.broadcasts_S5000x1_S5000x128 (ix2 p q) (ix2 p (0 : Fin 1)) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- Column 0 of the two-column table, at row `p`. -/
theorem table_column0 (x : FVec Ideal S5000x2 .f32) (p : Fin 5000) :
    extractStridedSlice S5000x1 ![0, 0] x Facts₀.slices_S5000x2_o0_0_S5000x1 (ix2 p (0 : Fin 1)) = x (ix2 p (0 : Fin 2)) :=
  extractStridedSlice_apply ![0, 0] x Facts₀.slices_S5000x2_o0_0_S5000x1 (ix2 p (0 : Fin 1)) (ix2 p (0 : Fin 2)) (fun a => by
    match a with
    | ⟨0, _⟩ => show p.val = 0 + p.val; omega
    | ⟨1, _⟩ => show (0 : Nat) = 0 + 0; rfl)

/-- Column 1 of the two-column table, at row `p`. -/
theorem table_column1 (x : FVec Ideal S5000x2 .f32) (p : Fin 5000) :
    extractStridedSlice S5000x1 ![0, 1] x Facts₀.slices_S5000x2_o0_1_S5000x1 (ix2 p (0 : Fin 1)) = x (ix2 p (1 : Fin 2)) :=
  extractStridedSlice_apply ![0, 1] x Facts₀.slices_S5000x2_o0_1_S5000x1 (ix2 p (0 : Fin 1)) (ix2 p (1 : Fin 2)) (fun a => by
    match a with
    | ⟨0, _⟩ => show p.val = 0 + p.val; omega
    | ⟨1, _⟩ => show (1 : Nat) = 1 + 0; rfl)

/-- THE STORED BLOCK at entry `(p, q)`: row `p`'s two table entries applied to row `p` of the two arrays. -/
theorem stored_apply (x2 : Vec Ideal S5000x2 .f32) (x0 x1 : Vec Ideal S5000x128 .f32) (p : Fin 5000) (q : Fin 128) :
    k0_pay1 (F := Ideal) x2 x0 x1 (ix2 p q)
      = x2 (ix2 p (0 : Fin 2)) * x0 (ix2 p q) - x2 (ix2 p (1 : Fin 2)) * x1 (ix2 p q) := by
  unfold k0_pay1
  show broadcastTo S5000x128 (extractStridedSlice S5000x1 ![0, 0] (shapeCast S5000x2 x2 Facts₀.shapeCasts_S5000x2_S5000x2) Facts₀.slices_S5000x2_o0_0_S5000x1) Facts₀.broadcasts_S5000x1_S5000x128 (ix2 p q) * x0 (ix2 p q)
      - broadcastTo S5000x128 (extractStridedSlice S5000x1 ![0, 1] (shapeCast S5000x2 x2 Facts₀.shapeCasts_S5000x2_S5000x2) Facts₀.slices_S5000x2_o0_1_S5000x1) Facts₀.broadcasts_S5000x1_S5000x128 (ix2 p q) * shapeCast S5000x128 x1 Facts₀.shapeCasts_S5000x128_S5000x128 (ix2 p q) = _
  rw [column_broadcast, column_broadcast, shapeCast_self, shapeCast_self, table_column0, table_column1]

end Cert.CenterGrad

end
-- ==== Proof.GradArray.lean ====
/-
  The array the kernel leaves, as one function of the three arrays its windows read.

  The grid has 20 points; point `t` works on class rows `5000·t … 5000·t + 4999`: every window's block index is
  `(t, 0)`, so the centre block, the feature-sum block and the table block at a point are the same 5000 rows of
  their arrays, and the output block is those rows of the output.  By the body's arithmetic the entry the point
  writes at array index `i` is  `table (row i, 0) · centres i − table (row i, 1) · featSum i`:  a function of the
  array index alone, the same at every point.  The 20 output blocks tile the 100000 rows (row `k` lies in block
  `k / 5000`), so after the run the whole output array is that function.
-/
import proofs.«162777_j60885456388837_2_alg».proof.Proof.Gen.KernelIdeal.Frame
import proofs.«162777_j60885456388837_2_alg».proof.Proof.BodyValue
import Idealize.ShloMosaic.Lib.Pipeline.Value
import Idealize.ShloMosaic.Lib.ValueIdx

set_option maxRecDepth 16384

noncomputable section

namespace Cert.CenterGrad

open Idealize.ShloMosaic Idealize.ShloMosaic.TcCoe Idealize.ShloMosaic.ValueIdx Idealize.SL.Sem
open Idealize.ShloMosaic.Pipeline (Dat)
open Cert.KernelIdeal Cert.KernelIdeal.Gen

/-- The class row of an index of a `[100000, 128]` array. -/
def rowOf (i : S100000x128.Idx) : Fin 100000 := ⟨(i 0).val, (i 0).isLt⟩

/-- The output as a function of the centres, the per-class feature sums and the two-column table:
    at `i`, the table's two entries of `i`'s class row applied to the two arrays' entries at `i`. -/
def gradOf (ctr fs : S100000x128.Idx → EReal) (tbl : S100000x2.Idx → EReal) : S100000x128.Idx → EReal :=
  fun i => tbl (ix2 (rowOf i) (0 : Fin 2)) * ctr i - tbl (ix2 (rowOf i) (1 : Fin 2)) * fs i

theorem zero_offsets : (![0, 0] : Fin 2 → Nat) = fun _ => 0 := funext fun a => by fin_cases a <;> rfl

/-- The index maps over the grid: every window's block index at point `t` is `(t, 0)`, below 20. -/
theorem same_rows : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) < 20 :=
  (by decide +kernel : ∀ t : Fin grid0.N, _)

/-- Every block of rows is some point's. -/
theorem every_block : ∀ b : Fin 20, ∃ t : Fin cfg0.N, win0_3.index t = ![b.val, 0] :=
  (by decide +kernel : ∀ b : Fin 20, ∃ t : Fin grid0.N, win0_3.index t = ![b.val, 0])

variable (m : (ℓ : Loc nD τ sig) → Buf (Elt Ideal) ℓ)

/-- WHAT POINT `t` WRITES BACK is block `t` of `gradOf` of the three arrays as the region finds them. -/
theorem written_block (c : Dev nD) (t : Fin cfg0.N) :
    (dats m 0 c).flushed 3 t
      = ((cfg0.win 3).blk t).view.read (Elt Ideal) (gradOf (V m c main_arg2) (V m c main_v6) (V m c main_v15)) := by
  show (cfg0.win 3).cut (grid0.coords t) ((dats m 0 c).after 3 t) = _
  rw [after0_3]
  unfold out0_3
  rw [View.canon_unit_zero zero_offsets]
  simp only [View.ld_unit_zero (S := S5000x2) zero_offsets, View.ld_unit_zero (S := S5000x128) zero_offsets]
  obtain ⟨e0, e1, e2, e3, e4, e5, e6, e7⟩ := same_rows t
  funext j
  obtain ⟨p, q, rfl⟩ : ∃ (p : Fin 5000) (q : Fin 128), j = ix2 p q := ⟨j 0, j 1, eq_ix2 j⟩
  refine (stored_apply (iblk m c 2 t) (iblk m c 0 t) (iblk m c 1 t) p q).trans ?_
  have h0 : ((cfg0.win 0).blk t).view.emb (ix2 p q) = ((cfg0.win 3).blk t).view.emb (ix2 p q) := by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * q.val = win0_3.index t (1 : Fin 2) * 128 + 1 * q.val; omega
  have h1 : ((cfg0.win 1).blk t).view.emb (ix2 p q) = ((cfg0.win 3).blk t).view.emb (ix2 p q) := by
    funext a; apply Fin.ext
    match a with
    | ⟨0, _⟩ => show win0_1.index t (0 : Fin 2) * 5000 + 1 * p.val = win0_3.index t (0 : Fin 2) * 5000 + 1 * p.val; omega
    | ⟨1, _⟩ => show win0_1.index t (1 : Fin 2) * 128 + 1 * q.val = win0_3.index t (1 : Fin 2) * 128 + 1 * q.val; omega
  have h2 : ∀ k : Fin 2, ((cfg0.win 2).blk t).view.emb (ix2 p k) = ix2 (rowOf (((cfg0.win 3).blk t).view.emb (ix2 p q))) k := by
    intro k
    funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 2 + 1 * k.val = k.val; omega
  have key : ∀ (tbl : S100000x2.Idx → EReal) (ctr fs : S100000x128.Idx → EReal),
      tbl (((cfg0.win 2).blk t).view.emb (ix2 p (0 : Fin 2))) * ctr (((cfg0.win 0).blk t).view.emb (ix2 p q))
        - tbl (((cfg0.win 2).blk t).view.emb (ix2 p (1 : Fin 2))) * fs (((cfg0.win 1).blk t).view.emb (ix2 p q))
      = gradOf ctr fs tbl (((cfg0.win 3).blk t).view.emb (ix2 p q)) := by
    intro tbl ctr fs
    rw [h0, h1, h2 0, h2 1]
    rfl
  exact key (V m c main_v15) (V m c main_arg2) (V m c main_v6)

/-- An index of the output array is in point `t`'s block iff each coordinate is in the block's range. -/
theorem mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- The blocks tile the array: row `k` lies in the block of point `k / 5000`. -/
theorem blocks_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := every_block ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY after the run is `gradOf` of the three arrays as the region finds them. -/
theorem grad_array (c : Dev nD) :
    (dats m 0 c).arrAt 3 cfg0.N = gradOf (V m c main_arg2) (V m c main_v6) (V m c main_v15) :=
  (dats m 0 c).arrAt_eq_of_cover 3 _ (fun t _ => written_block m c t) blocks_cover

end Cert.CenterGrad

end
-- ==== Proof.ClassStats.lean ====
/-
  The per-class statistics the host lines before the kernel compute, and what the kernel's windows find.

  From the labels `y` and the feature rows the host lines form, per class `k`:
    * `counts k`  — the number of samples labelled `k`: a scatter-add of ones into zeros;
    * `featSum k` — the sum of the feature rows of those samples: a scatter-add of the rows into zeros;
    * `ratio k  = counts k / (1 + counts k)`;
    * `scale k  = ratio k / max (counts k) 1`;
  and pack `ratio` and `scale` as the two columns of a table `[100000, 2]`.  The kernel's second window is
  `featSum`, its third the table; column 0 of the table at row `k` is `ratio k`, column 1 is `scale k`.
-/
import proofs.«162777_j60885456388837_2_alg».proof.Proof.Gen.KernelIdeal.Frame
import Idealize.ShloMosaic.Lib.Pipeline.Value
import Idealize.ShloMosaic.Lib.ValueIdx
import Idealize.ShloMosaic.Lib.StableHlo.Run

noncomputable section

namespace Cert.CenterGrad

open Idealize.ShloMosaic Idealize.ShloMosaic.TcCoe Idealize.ShloMosaic.ValueIdx Idealize.SL.Sem Idealize.ShloMosaic.StableHlo
open Cert.KernelIdeal Cert.KernelIdeal.Gen

/-- The number of samples of each class: ones scattered onto zeros at the labels. -/
def counts (y : IVec S16384 32) : FVec Ideal S100000 .f32 :=
  Host.scatterAdd scatter_S100000_S16384x1_S16384_n_0_0_1
    (broadcastInDim S100000 ![] Facts₀.bcast_S_S100000 (constant (F := Ideal) S_ .f32 0x00000000#32))
    (broadcastInDim S16384x1 ![0] Facts₀.bcast_S16384_S16384x1_0 y)
    (broadcastInDim S16384 ![] Facts₀.bcast_S_S16384 (constant (F := Ideal) S_ .f32 0x3F800000#32))

/-- The sum of the feature rows of each class: the rows scattered onto zeros at the labels. -/
def featSum (y : IVec S16384 32) (feat : FVec Ideal S16384x128 .f32) : FVec Ideal S100000x128 .f32 :=
  Host.scatterAdd scatter_S100000x128_S16384x1_S16384x128_1_0_0_1
    (broadcastInDim S100000x128 ![] Facts₀.bcast_S_S100000x128 (constant (F := Ideal) S_ .f32 0x00000000#32))
    (broadcastInDim S16384x1 ![0] Facts₀.bcast_S16384_S16384x1_0 y)
    feat

/-- One per class. -/
def ones : FVec Ideal S100000 .f32 :=
  broadcastInDim S100000 ![] Facts₀.bcast_S_S100000 (constant (F := Ideal) S_ .f32 0x3F800000#32)

/-- `counts / (1 + counts)`, per class. -/
def ratio (y : IVec S16384 32) : FVec Ideal S100000 .f32 :=
  Host.divf (F := Ideal) (counts y) (addf ones (counts y))

/-- `ratio / max counts 1`, per class. -/
def scale (y : IVec S16384 32) : FVec Ideal S100000 .f32 :=
  Host.divf (F := Ideal) (ratio y) (maximumf (counts y) ones)

/-- The two-column table: column 0 the ratio, column 1 the scale. -/
def table (y : IVec S16384 32) : FVec Ideal S100000x2 .f32 :=
  concatenate S100000x2 1
    [⟨S100000x1, broadcastInDim S100000x1 ![0] Facts₀.bcast_S100000_S100000x1_0 (ratio y)⟩,
     ⟨S100000x1, broadcastInDim S100000x1 ![0] Facts₀.bcast_S100000_S100000x1_0 (scale y)⟩]
    Facts₀.concatenates_S100000x1_S100000x1_S100000x2_d1

variable (m : (ℓ : Loc nD τ sig) → Buf (Elt Ideal) ℓ)

/-- The kernel's second window finds the per-class feature sums. -/
theorem V_featSum (c : Dev nD) :
    (V m c main_v6 : S100000x128.Idx → EReal)
      = featSum (m ((c : Thread nD τ).loc main_arg0)) (m ((c : Thread nD τ).loc main_arg1)) := by
  show StableHlo.after hostOps0 (fun b => m (c, b)) (Proc.devRef .tc main_v6) = _
  after_results
  rfl

/-- The kernel's third window finds the two-column table. -/
theorem V_table (c : Dev nD) :
    (V m c main_v15 : S100000x2.Idx → EReal) = table (m ((c : Thread nD τ).loc main_arg0)) := by
  show StableHlo.after hostOps0 (fun b => m (c, b)) (Proc.devRef .tc main_v15) = _
  after_results
  rfl

/-- A per-class vector as a column `[100000, 1]`, at row `k`. -/
theorem as_column (v : FVec Ideal S100000 .f32) (k : Fin 100000) :
    broadcastInDim S100000x1 ![0] Facts₀.bcast_S100000_S100000x1_0 v (ix2 k (0 : Fin 1)) = v (ix1 k) :=
  broadcastInDim_apply _ Facts₀.bcast_S100000_S100000x1_0 v (ix2 k (0 : Fin 1)) (ix1 k) (fun a => by
    match a with
    | ⟨0, _⟩ => show k.val = if (100000 : Nat) = 1 then 0 else k.val; rw [if_neg (by decide)])

/-- Column 0 of the table at row `k` is the ratio of class `k`. -/
theorem table_col0 (y : IVec S16384 32) (k : Fin 100000) : table y (ix2 k (0 : Fin 2)) = ratio y (ix1 k) := by
  unfold table
  refine (concatenate_pair_apply_left (t := S100000x2) (s₁ := S100000x1) (s₂ := S100000x1) (1 : Fin 2) _ _ Facts₀.concatenates_S100000x1_S100000x1_S100000x2_d1 (ix2 k (0 : Fin 2)) rfl (ix2 k (0 : Fin 1)) (fun b => by
    match b with
    | ⟨0, _⟩ => rfl
    | ⟨1, _⟩ => rfl)).trans ?_
  exact as_column _ k

/-- Column 1 of the table at row `k` is the scale of class `k`. -/
theorem table_col1 (y : IVec S16384 32) (k : Fin 100000) : table y (ix2 k (1 : Fin 2)) = scale y (ix1 k) := by
  unfold table
  refine (concatenate_pair_apply_right (t := S100000x2) (s₁ := S100000x1) (s₂ := S100000x1) (1 : Fin 2) _ _ Facts₀.concatenates_S100000x1_S100000x1_S100000x2_d1 (ix2 k (1 : Fin 2)) rfl rfl (ix2 k (0 : Fin 1)) (fun b hb => by
    match b with
    | ⟨0, _⟩ => rfl
    | ⟨1, _⟩ => exact absurd rfl hb) (by rfl)).trans ?_
  exact as_column _ k

end Cert.CenterGrad

end
-- ==== Proof.StatsReal.lean ====
/-
  The per-class statistics are real numbers.

  At the ideal instance a scatter-add is, at each element, the operand's entry plus the sum of the update entries
  whose index lands there.  The counts scatter ones onto zeros: each count is `0 + (a sum of ones)`, a non-negative
  real, whichever updates land where.  The feature sums scatter the feature rows onto zeros: each is `0 +` a
  finite sum of entries of the feature array, a real number as soon as every entry of that array is.
  Which samples carry which label is never looked at.
-/
import proofs.«162777_j60885456388837_2_alg».proof.Proof.ClassStats
import proofs.«162777_j60885456388837_2_alg».proof.Proof.RealArith
import Idealize.ShloMosaic.Lib.IdealHost

noncomputable section

open scoped BigOperators

namespace Cert.CenterGrad

open Idealize.ShloMosaic Idealize.ShloMosaic.ValueIdx
open Cert.KernelIdeal Cert.KernelIdeal.Gen

/-- A broadcast zero constant reads 0 everywhere. -/
theorem zeros_apply {s : Shape} (hb : S_.BroadcastsInDim s (![] : Fin 0 → Fin s.rank)) (i : s.Idx) :
    broadcastInDim s ![] hb (constant (F := Ideal) S_ .f32 0x00000000#32) i = (0 : EReal) :=
  (broadcastInDim_apply _ hb _ i ix0 (fun a => a.elim0)).trans Ideal.ofBits_zero_f32

/-- A broadcast constant 1.0 reads 1 everywhere. -/
theorem ones_apply {s : Shape} (hb : S_.BroadcastsInDim s (![] : Fin 0 → Fin s.rank)) (i : s.Idx) :
    broadcastInDim s ![] hb (constant (F := Ideal) S_ .f32 0x3F800000#32) i = (1 : EReal) :=
  (broadcastInDim_apply _ hb _ i ix0 (fun a => a.elim0)).trans Ideal.ofBits_one_f32

/-- The per-class one is 1. -/
theorem ones_eq (k : S100000.Idx) : ones k = (1 : EReal) := ones_apply _ k

/-- Each count is a non-negative real number. -/
theorem counts_real (y : IVec S16384 32) (k : S100000.Idx) : ∃ n : ℝ, 0 ≤ n ∧ counts y k = (n : EReal) := by
  obtain ⟨n, hn, e⟩ := sum_ones_real (Finset.univ.filter (fun j : S16384.Idx =>
    scatter_S100000_S16384x1_S16384_n_0_0_1.resultIdx? j (broadcastInDim S16384x1 ![0] Facts₀.bcast_S16384_S16384x1_0 y) = some k))
  refine ⟨n, hn, ?_⟩
  show broadcastInDim S100000 ![] Facts₀.bcast_S_S100000 (constant (F := Ideal) S_ .f32 0x00000000#32) k
      + ∑ j ∈ Finset.univ.filter (fun j : S16384.Idx =>
          scatter_S100000_S16384x1_S16384_n_0_0_1.resultIdx? j (broadcastInDim S16384x1 ![0] Facts₀.bcast_S16384_S16384x1_0 y) = some k),
        broadcastInDim S16384 ![] Facts₀.bcast_S_S16384 (constant (F := Ideal) S_ .f32 0x3F800000#32) j = _
  rw [zeros_apply, zero_add, ← e]
  exact Finset.sum_congr rfl (fun j _ => ones_apply _ j)

/-- Each feature sum is a real number when every entry of the feature array is. -/
theorem featSum_real (y : IVec S16384 32) (feat : FVec Ideal S16384x128 .f32)
    (hf : ∀ j, ∃ r : ℝ, feat j = (r : EReal)) (i : S100000x128.Idx) : ∃ σ : ℝ, featSum y feat i = (σ : EReal) := by
  obtain ⟨σ, e⟩ := sum_real (Finset.univ.filter (fun j : S16384x128.Idx =>
    scatter_S100000x128_S16384x1_S16384x128_1_0_0_1.resultIdx? j (broadcastInDim S16384x1 ![0] Facts₀.bcast_S16384_S16384x1_0 y) = some i)) feat hf
  refine ⟨σ, ?_⟩
  show broadcastInDim S100000x128 ![] Facts₀.bcast_S_S100000x128 (constant (F := Ideal) S_ .f32 0x00000000#32) i
      + ∑ j ∈ Finset.univ.filter (fun j : S16384x128.Idx =>
          scatter_S100000x128_S16384x1_S16384x128_1_0_0_1.resultIdx? j (broadcastInDim S16384x1 ![0] Facts₀.bcast_S16384_S16384x1_0 y) = some i),
        feat j = _
  rw [zeros_apply, zero_add, e]

end Cert.CenterGrad

end
-- ==== Proof.GradBridge.lean ====
/-
  The kernel's array is the reference's, entry by entry.

  At index `(k, q)` — class `k`, feature coordinate `q` — write `x = counts k`, `s = featSum (k, q)`,
  `c = centres (k, q)`, `r = x / (1 + x)`, `m = max x 1`.  The kernel's array holds `r · c − (r / m) · s` (the table's
  two columns are `r` and `r / m`); the reference's result is `r · (c − s / m)`, its broadcasts of a per-class vector
  along the feature axis reading class `k`'s entry, and its counts and feature sums the very scatter-adds the
  kernel's program forms.  Under the precondition `c` is real, `s` is a finite sum of real feature entries and `x`
  a sum of ones, so the two agree by the real-number law.
-/
import proofs.«162777_j60885456388837_2_alg».proof.Proof.GradArray
import proofs.«162777_j60885456388837_2_alg».proof.Proof.StatsReal
import proofs.«162777_j60885456388837_2_alg».proof.Proof.Gen.ReferenceIdeal.Read

noncomputable section

namespace Cert.CenterGrad

open Idealize.ShloMosaic Idealize.ShloMosaic.ValueIdx
open Cert.KernelIdeal Cert.KernelIdeal.Gen

/-- The reference's counts are the kernel's program's: the same scatter-add of ones onto zeros. -/
theorem ref_counts (y : IVec S16384 32) : Cert.ReferenceIdeal.Read.val_main_v3 (F := Ideal) y = counts y := rfl

/-- The reference's feature sums are the kernel's program's: the same scatter-add of the feature rows onto zeros. -/
theorem ref_featSum (y : IVec S16384 32) (feat : FVec Ideal S16384x128 .f32) :
    Cert.ReferenceIdeal.Read.val_main_v6 (F := Ideal) y feat = featSum y feat := rfl

/-- The ratio of a class, spelt out. -/
theorem ratio_apply (y : IVec S16384 32) (k : S100000.Idx) :
    ratio y k = FloatOps.hostDivf (F := Ideal) (counts y k) (FloatOps.addf (F := Ideal) (ones k) (counts y k)) := rfl

/-- The scale of a class, spelt out. -/
theorem scale_apply (y : IVec S16384 32) (k : S100000.Idx) :
    scale y k = FloatOps.hostDivf (F := Ideal) (ratio y k) (FloatOps.maximumf (F := Ideal) (counts y k) (ones k)) := rfl

/-- THE REFERENCE'S RESULT at `(k, q)`: `r · (c − s / m)` of class `k`'s count and the two entries at `(k, q)`. -/
theorem ref_apply (y : IVec S16384 32) (feat : FVec Ideal S16384x128 .f32) (ctr : FVec Ideal S100000x128 .f32)
    (k : Fin 100000) (q : Fin 128) :
    Cert.ReferenceIdeal.Read.val_main_v18 (F := Ideal) y feat ctr (ix2 k q)
      = Ideal.div (counts y (ix1 k)) (1 + counts y (ix1 k))
          * (ctr (ix2 k q) - Ideal.div (featSum y feat (ix2 k q)) (max (counts y (ix1 k)) 1)) := by
  have i15 : Cert.ReferenceIdeal.Read.idx_main_v15 (Cert.ReferenceIdeal.Read.idx_main_v17 (ix2 k q)) = ix1 k :=
    funext fun a => Fin.ext (by match a with | ⟨0, _⟩ => rfl)
  have i9 : Cert.ReferenceIdeal.Read.idx_main_v9 (Cert.ReferenceIdeal.Read.idx_main_v10 (ix2 k q)) = ix1 k :=
    funext fun a => Fin.ext (by match a with | ⟨0, _⟩ => rfl)
  rw [Cert.ReferenceIdeal.Read.val_main_v18_apply, Cert.ReferenceIdeal.Read.val_main_v17_apply,
    Cert.ReferenceIdeal.Read.val_main_v15_apply, Cert.ReferenceIdeal.Read.val_main_v14_apply,
    Cert.ReferenceIdeal.Read.val_main_v13_apply, Cert.ReferenceIdeal.Read.val_main_v12_apply,
    Cert.ReferenceIdeal.Read.val_main_cst_3_apply, Cert.ReferenceIdeal.Read.val_main_v16_apply,
    Cert.ReferenceIdeal.Read.val_main_v11_apply, Cert.ReferenceIdeal.Read.val_main_v10_apply,
    Cert.ReferenceIdeal.Read.val_main_v9_apply, Cert.ReferenceIdeal.Read.val_main_v8_apply,
    Cert.ReferenceIdeal.Read.val_main_v7_apply, Cert.ReferenceIdeal.Read.val_main_cst_2_apply,
    i15, i9, ref_counts, ref_featSum]
  simp only [Ideal.mulf_def, Ideal.hostDivf_def, Ideal.addf_def, Ideal.subf_def, Ideal.maximumf_def, Ideal.ofBits_def,
    Ideal.ofBits_one_f32]

/-- THE BRIDGE: with every entry of the feature array and of the centre array a real number, the kernel's array —
    `gradOf` of the centres, the feature sums and the table — is the reference's result. -/
theorem grad_eq_ref (y : IVec S16384 32) (feat : FVec Ideal S16384x128 .f32) (ctr : FVec Ideal S100000x128 .f32)
    (hf : ∀ j, ∃ r : ℝ, feat j = (r : EReal)) (hc : ∀ i, ∃ r : ℝ, ctr i = (r : EReal)) :
    gradOf ctr (featSum y feat) (table y) = Cert.ReferenceIdeal.Read.val_main_v18 (F := Ideal) y feat ctr := by
  funext i
  obtain ⟨k, q, rfl⟩ : ∃ (k : Fin 100000) (q : Fin 128), i = ix2 k q := ⟨i 0, i 1, eq_ix2 i⟩
  rw [ref_apply]
  have hr : rowOf (ix2 k q) = k := rfl
  show table y (ix2 (rowOf (ix2 k q)) (0 : Fin 2)) * ctr (ix2 k q)
      - table y (ix2 (rowOf (ix2 k q)) (1 : Fin 2)) * featSum y feat (ix2 k q) = _
  rw [hr, table_col0, table_col1, scale_apply, ratio_apply, ones_eq]
  simp only [Ideal.hostDivf_def, Ideal.addf_def, Ideal.maximumf_def]
  obtain ⟨n, hn, hx⟩ := counts_real y (ix1 k)
  obtain ⟨σ, hs⟩ := featSum_real y feat hf (ix2 k q)
  obtain ⟨γ, hg⟩ := hc (ix2 k q)
  rw [hx, hs, hg]
  exact grad_law 1 _ _ _ rfl ⟨n, hn, rfl⟩ ⟨σ, rfl⟩ ⟨γ, rfl⟩

end Cert.CenterGrad

end
-- ==== Proof.lean ====
/-
  Centre loss and the gradient of the class centres: the kernel's program against its plain reference, equal
  over the extended reals.

  Both programs take integer labels `y`, feature rows `feat` and class centres `centres`, and return a loss and an
  array shaped like the centres.

  THE LOSS is computed by the same host lines in both programs (wrap negative labels, gather each sample's
  centre row, subtract, square, sum from zero, multiply by 0.005): one function of the three arguments, and in
  the kernel's program those lines read nothing the kernel wrote (Proof/LossValue.lean).

  THE ARRAY.  Per class `k` let `x` be the number of samples labelled `k` and, per feature coordinate, `s` the sum
  of their feature entries and `c` the centre's entry; `r = x / (1 + x)`, `m = max x 1`.  The reference returns
  `r · (c − s / m)`.  The kernel's program packs `r` and `r / m` as the two columns of a table on the host
  (Proof/ClassStats.lean), and its kernel — 20 grid points of 5000 class rows each — stores
  `column 0 · c − column 1 · s` (Proof/BodyValue.lean); the 20 blocks tile the array, so the array it leaves is
  `r · c − (r / m) · s` everywhere (Proof/GradArray.lean).  The two expressions agree by distributivity, which on
  the extended reals needs finite terms: under the precondition every entry of `feat` and `centres` is a real
  number (Proof/FiniteInputs.lean), `s` is then a finite sum of reals and `x` a sum of ones
  (Proof/StatsReal.lean), `m ≥ 1` and `1 + x > 0` are never zero, and the identity is the real one
  (Proof/RealArith.lean, Proof/GradBridge.lean).

  The three frames: the two kernel programs' are the frame theorems of their runs; the reference's is its run
  with the results dropped.  The idealization rewrote nothing, so there is nothing to preserve.
-/
import proofs.«162777_j60885456388837_2_alg».proof.Defs
import proofs.«162777_j60885456388837_2_alg».proof.Proof.Gen.Kernel
import proofs.«162777_j60885456388837_2_alg».proof.Proof.Gen.Kernel.Skeleton
import proofs.«162777_j60885456388837_2_alg».proof.Proof.Gen.Kernel.Launch
import proofs.«162777_j60885456388837_2_alg».proof.Proof.Gen.Kernel.Points
import proofs.«162777_j60885456388837_2_alg».proof.Proof.Gen.Kernel.Frame
import proofs.«162777_j60885456388837_2_alg».proof.Proof.Gen.KernelIdeal
import proofs.«162777_j60885456388837_2_alg».proof.Proof.Gen.KernelIdeal.Skeleton
import proofs.«162777_j60885456388837_2_alg».proof.Proof.Gen.KernelIdeal.Launch
import proofs.«162777_j60885456388837_2_alg».proof.Proof.Gen.KernelIdeal.Points
import proofs.«162777_j60885456388837_2_alg».proof.Proof.Gen.KernelIdeal.Frame
import proofs.«162777_j60885456388837_2_alg».proof.Proof.Gen.ReferenceIdeal
import proofs.«162777_j60885456388837_2_alg».proof.Proof.Gen.ReferenceIdeal.Run
import proofs.«162777_j60885456388837_2_alg».proof.Proof.Gen.ReferenceIdeal.Read
import proofs.«162777_j60885456388837_2_alg».proof.Proof.Gen.Pre_finite_inputs
import proofs.«162777_j60885456388837_2_alg».proof.Proof.FiniteInputs
import proofs.«162777_j60885456388837_2_alg».proof.Proof.LossValue
import proofs.«162777_j60885456388837_2_alg».proof.Proof.GradBridge
import Idealize.ShloMosaic.Adequacy
import Idealize.ShloMosaic.Init

noncomputable section

namespace Cert.Proof

open Idealize.ShloMosaic Idealize.ShloMosaic.TcCoe Idealize.SL.Sem Cert.CenterGrad

theorem frame_kernel : Cert.frame_Kernel := fun m ρ _ => Cert.Kernel.Gen.frame m ρ

theorem frame_kernel_ideal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the loss and the array at the reference's two stages of the kernel program's arguments:
    the kernel's program by its frame run read back (the loss through the lines after the region, the array through
    the blocks the grid points write and the real-number law), the reference by its run and the agreement of the
    arguments. -/
theorem algebraic : Cert.algebraic_KernelIdeal_ReferenceIdeal := by
  intro m ρ m' ρ' hpre hagree
  refine ⟨fun c => Cert.ReferenceIdeal.Read.val_main_v29 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)),
          fun c => Cert.ReferenceIdeal.Read.val_main_v18 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Gen.run_main m ρ)
    obtain ⟨hfeat, hctr⟩ := real_of_pre _ _ _ (hpre c)
    refine ⟨?_, ?_, ?_, ?_, ?_⟩
    · exact ((h c).2 Cert.KernelIdeal.main_v27
        (Pipeline.mem_restRefs_of Cert.KernelIdeal.main_v27 (by decide) (by decide))).trans (loss_value m c)
    · refine ((h c).1 3).trans ((grad_array m c).trans ?_)
      rw [Cert.KernelIdeal.Gen.V_main_arg2, V_featSum, V_table]
      exact grad_eq_ref _ _ _ hfeat hctr
    · exact ((h c).2 Cert.KernelIdeal.main_arg0
        (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1
        (Pipeline.mem_restRefs_of Cert.KernelIdeal.main_arg1 (by decide) (by decide))).trans
        (Cert.KernelIdeal.Gen.W_main_arg1 m (Cert.KernelIdeal.Gen.dats m) c)
    · exact ((h c).1 0).trans (((Cert.KernelIdeal.Gen.dats m 0 c).arrAt_in 0 rfl _).trans
        ((Cert.KernelIdeal.Gen.A_eq m c 0).trans (Cert.KernelIdeal.Gen.V_main_arg2 m c)))
  · refine (θ_run Cert.ReferenceIdeal.defs _ _).mono (fun r h c => ?_)
      (Cert.ReferenceIdeal.Value.run (F := Ideal) m' ρ')
    obtain ⟨h29, h18, h0, h1, h2⟩ := h c
    refine ⟨h29.trans ((Cert.ReferenceIdeal.Read.val_main_v29_eq _ _ _).trans ?_),
      h18.trans ((Cert.ReferenceIdeal.Read.val_main_v18_eq _ _ _).trans ?_), h0, h1, h2⟩
    · rw [(hagree c).1, (hagree c).2.1, (hagree c).2.2]
    · rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
